-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 9
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S10000x128, .bf16⟩
  | .local _ .vmem, ⟨12, _⟩ => ⟨S128x128, .bf16⟩
  | .local _ .vmem, ⟨13, _⟩ => ⟨S128x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c2_i32 : BitVec 32 := 2#32
  let arg0 : BitVec 32 := BitVec.ofNat 32 (i 0).val
  let v3 : BitVec 32 := Scalar.muli c2_i32 arg0
  let c200_i32 : BitVec 32 := 200#32
  let v4 : BitVec 32 := Scalar.muli v3 c200_i32
  let v9 : Index := Scalar.indexCast v4
  let c0_4 : Index := 0#32
  ![v9.toNat, 0]
def k0_off2 (i : grid0.Coords) : Fin 2 → Nat :=
  let c2_i32_19 : BitVec 32 := 2#32
  let arg0 : BitVec 32 := BitVec.ofNat 32 (i 0).val
  let v33 : BitVec 32 := Scalar.muli c2_i32_19 arg0
  let c1_i32 : BitVec 32 := 1#32
  let v34 : BitVec 32 := Scalar.addi v33 c1_i32
  let c200_i32_20 : BitVec 32 := 200#32
  let v35 : BitVec 32 := Scalar.muli v34 c200_i32_20
  let v40 : Index := Scalar.indexCast v35
  let c0_26 : Index := 0#32
  ![v40.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S200x10000_S200x10000_0_0 : ∀ a, (![0, 0] : Fin 2 → Nat) a + S200x10000.size a ≤ S200x10000.size a
  h_S200x10000 : 0 < S200x10000.numel
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S128x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .i1⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibFrameShared.lean ====
/-
  The frame run of a one-region pipeline kernel whose windows may SHARE an array.

  The library's frame runs ask that the windows' arrays be pairwise distinct buffers, because they hand each array to
  its window whole, at the full share.  When one array is given to the kernel through several input windows, the
  launch instead takes, from the certificate, how the distinct buffers behind the arrays — each whole at its contents
  at the region's entry — are divided among the windows.  This module states the frame run in that form: everything
  else is as in the tracking frame run (the certificate's own invariant over the scratch buffers point by point,
  entered from the scoped rest at anything and returned to it at the end; every buffer that is no window's array
  bypasses the region and is read back unchanged).  It depends on the library only.
-/
import Idealize.ShloMosaic.Lib.Pipeline.Frame

noncomputable section

namespace Cert.Lib.FrameShared

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN, windows sharing arrays.  `hsplit` says how the distinct buffers behind the windows' arrays, each
    whole at the region-entry contents `V`, make the proof data's arrays at the windows' shares; `hin` / `hout` enter
    the certificate's invariant from the scoped rest (every scratch buffer at anything) and return to it.  Every weakly
    fair execution of @main terminates, each window's array ends at what the proof data compute (`Dat.arrAt … N`) and
    every unscoped buffer that is no window's array at its region-entry contents. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.FrameShared

end
-- ==== Proof.BitsRuns.lean ====
/-
  What the two runs of the fused kernel's body share.  The grid has 25 points; point `t` handles rows
  `400·t … 400·t + 399` of the result.  The body first asks whether it is at the grid's first point: only there does it
  fill its three scratch buffers (the node features and the two transposed weight matrices, each rounded to bf16), and at
  every point it then reads them.  So the body has two control cases, "first point" and "later point".
  Here: the contents of every buffer when the region is entered (after the two reshapes of the bias vectors), each
  window's block at a point read off those contents, the branch condition decided over the grid, and names for the
  staging and scratch memrefs the pipeline passes the body.
-/
import proofs.«101437_g85229331022396_cont_9to1_m_1172_8_alg».proof.Proof.Gen.Kernel.Launch
import proofs.«101437_g85229331022396_cont_9to1_m_1172_8_alg».proof.Proof.Gen.Kernel.Skeleton
import proofs.«101437_g85229331022396_cont_9to1_m_1172_8_alg».proof.Proof.Gen.Kernel.Points
import proofs.«101437_g85229331022396_cont_9to1_m_1172_8_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the bias vectors. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- "This is the grid's first point", as the body computes it from the grid coordinate. -/
abbrev cond0 (i : grid0.Coords) : Prop := (Scalar.cmpi .ne (Scalar.extui (Scalar.cmpi .eq (BitVec.ofNat 32 (i 0).val) 0#32)) 0#32) = 1#1
/-- It holds at point 0 only — decided over the 25 points. -/
theorem hcond0 : ∀ t : Fin cfg0.N, cond0 (grid0.coords t) ↔ t.val % 25 = 0 :=
  (by decide +kernel : ∀ t : Fin grid0.N, cond0 (grid0.coords t) ↔ t.val % 25 = 0)

/-- No window is ever idle. -/
theorem liveAt : ∀ (w : Fin cfg0.W) (t : Fin cfg0.N), cfg0.idle w (grid0.coords t) = false := by decide +kernel

/-! ## The memrefs the body is called with -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch operands: the bf16 copy of the node features, and of each transposed weight matrix. -/
abbrev scM0 : Memref sig .tc .vmem S10000x128 .bf16 := Memref.whole cc0_scratch0
abbrev scM1 : Memref sig .tc .vmem S128x128 .bf16 := Memref.whole cc0_scratch1
abbrev scM2 : Memref sig .tc .vmem S128x128 .bf16 := Memref.whole cc0_scratch2
/-- Views through which buffer contents are stated (the choice of buffer does not matter). -/
abbrev VO7 : View sig .tc .vmem S400x128 .f32 := (Memref.whole cc0_stg7_0 : Memref sig .tc .vmem S400x128 .f32).view
abbrev VS0 : View sig .tc .vmem S10000x128 .bf16 := scM0.view
abbrev VS1 : View sig .tc .vmem S128x128 .bf16 := scM1.view
abbrev VS2 : View sig .tc .vmem S128x128 .bf16 := scM2.view

/-- The scoped buffers that are no staging buffer are the three scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.Kernel.Hand

end
-- ==== Proof.BitsRunFirst.lean ====
/-
  The body's run at the grid's FIRST point: the branch is taken, the three scratch buffers are filled (each stored whole,
  so whatever they held is gone), and then both 200-row halves of the output block are computed and stored.  The run
  is by symbolic execution; what each buffer the body stores into ends with is found, as a list of stored pieces, by
  that run.
-/
import proofs.«101437_g85229331022396_cont_9to1_m_1172_8_alg».proof.Proof.BitsRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point, on whole memrefs: the seven inputs at their contents, the output buffer and the three
    scratch buffers at anything.  It runs to the continuation holding the inputs as they were and each of the other four
    with the pieces it stored. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i)
    (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    Σ' (L7 : List (View.Piece (Elt F) S400x128 .f32)) (LS0 : List (View.Piece (Elt F) S10000x128 .bf16)) (LS1 : List (View.Piece (Elt F) S128x128 .bf16)), { LS2 : List (View.Piece (Elt F) S128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__ngcf_fused i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__ngcf_fused_eq_skeleton]; unfold cc0__ngcf_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; iexact HS2

end Cert.Kernel.Hand

end
-- ==== Proof.BitsRunLater.lean ====
/-
  The body's run at a LATER point: the branch is not taken, so the scratch buffers are only read — they are handed to the
  body at the contents the first point left and come back unchanged — and both 200-row halves of the output block are
  computed and stored.
-/
import proofs.«101437_g85229331022396_cont_9to1_m_1172_8_alg».proof.Proof.BitsRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point, on whole memrefs: the seven inputs and the three scratch buffers at their contents, the
    output buffer at anything.  It runs to the continuation holding all ten as they were and the output buffer with the
    pieces it stored. -/
noncomputable def runLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i)
    (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) :
    { L7 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0__ngcf_fused i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__ngcf_fused_eq_skeleton]; unfold cc0__ngcf_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.Kernel.Hand

end
-- ==== Proof.BitsFrame.lean ====
/-
  The frame of the fused kernel: every weakly fair execution of @main terminates, nothing faults, and the six argument
  arrays end unchanged.

  What the buffers hold, point by point.  Each of the seven input windows holds its block of its array at every point.
  The three scratch buffers hold, after every point, what the FIRST point stored into them (later points only read
  them).  The output window's staging buffer holds, after point `t`, the 400 rows the body stored there: the first
  point's run gives them at `t = 0`, the later-point run — over the scratch contents the first point left — elsewhere.
  The adjacency matrix is handed to the kernel through two windows (its even and its odd 200-row stripes); the two
  windows hold it at complementary half shares, which is all two readers need.
-/
import proofs.«101437_g85229331022396_cont_9to1_m_1172_8_alg».proof.Proof.BitsRunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' stores leave -/

theorem coverF7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S400x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).1 S200x128.size (by sl_kernel_rfl) y
theorem coverFS0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S10000x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.1 S10000x128.size (by sl_kernel_rfl) y
theorem coverFS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S128x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.2.1 S128x128.size (by sl_kernel_rfl) y
theorem coverFS2 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S128x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1 S128x128.size (by sl_kernel_rfl) y
theorem coverL7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) (y : S400x128.Idx) :
    ∃ pc ∈ (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1, y ∈ pc.1.set :=
  View.cover_of_tiledL (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1 S200x128.size (by sl_kernel_rfl) y

/-- What the first point leaves in the output buffer and in each scratch buffer: its pieces read back. -/
def outF7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S400x128 .f32 :=
  VO7.read (Elt F) (VO7.writes (Elt F) VO7.junk (runFirst c i arg1 harg1 arg2 harg2 arg3 harg3 arg4 harg4 arg5 harg5 arg6 harg6 arg7 harg7 arg8 harg8 arg9 harg9 arg10 harg10 arg11 harg11 hc x0 x1 x2 x3 x4 x5 x6).1)
def scF0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S10000x128 .bf16 :=
  VS0.read (Elt F) (VS0.writes (Elt F) VS0.junk (runFirst c i arg1 harg1 arg2 harg2 arg3 harg3 arg4 harg4 arg5 harg5 arg6 harg6 arg7 harg7 arg8 harg8 arg9 harg9 arg10 harg10 arg11 harg11 hc x0 x1 x2 x3 x4 x5 x6).2.1)
def scF1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S128x128 .bf16 :=
  VS1.read (Elt F) (VS1.writes (Elt F) VS1.junk (runFirst c i arg1 harg1 arg2 harg2 arg3 harg3 arg4 harg4 arg5 harg5 arg6 harg6 arg7 harg7 arg8 harg8 arg9 harg9 arg10 harg10 arg11 harg11 hc x0 x1 x2 x3 x4 x5 x6).2.2.1)
def scF2 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S128x128 .bf16 :=
  VS2.read (Elt F) (VS2.writes (Elt F) VS2.junk (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1)
/-- What a later point leaves in the output buffer. -/
def outL7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) : Vec F S400x128 .f32 :=
  VO7.read (Elt F) (VO7.writes (Elt F) VO7.junk (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1)

/-! ## Point by point -/

/-- The grid's first point. -/
abbrev t0 : Fin cfg0.N := ⟨0, by decide⟩
theorem hc_t0 : cond0 (grid0.coords t0) := (hcond0 t0).mpr rfl

/-- The scratch buffers' contents from the first point on. -/
def sc0 (c : Dev nD) : Vec F S10000x128 .bf16 := scF0 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)
def sc1 (c : Dev nD) : Vec F S128x128 .bf16 := scF1 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)
def sc2 (c : Dev nD) : Vec F S128x128 .bf16 := scF2 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)

/-- The output window's staging buffer after point `t`. -/
def outAt (c : Dev nD) (t : Fin cfg0.N) : Vec F S400x128 .f32 :=
  if h : t.val % 25 = 0 then outF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) ((hcond0 t).mpr h) (iblk m c 0 t) (iblk m c 1 t) (iblk m c 2 t) (iblk m c 3 t) (iblk m c 4 t) (iblk m c 5 t) (iblk m c 6 t)
  else outL7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (fun hh => h ((hcond0 t).mp hh)) (iblk m c 0 t) (iblk m c 1 t) (iblk m c 2 t) (iblk m c 3 t) (iblk m c 4 t) (iblk m c 5 t) (iblk m c 6 t) (sc0 m c) (sc1 m c) (sc2 m c)

theorem outAt_first (c : Dev nD) (t : Fin cfg0.N) (h : t.val % 25 = 0) :
    outAt m c t = outF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) ((hcond0 t).mpr h) (iblk m c 0 t) (iblk m c 1 t) (iblk m c 2 t) (iblk m c 3 t) (iblk m c 4 t) (iblk m c 5 t) (iblk m c 6 t) := dif_pos h
theorem outAt_later (c : Dev nD) (t : Fin cfg0.N) (h : ¬t.val % 25 = 0) :
    outAt m c t = outL7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (fun hh => h ((hcond0 t).mp hh)) (iblk m c 0 t) (iblk m c 1 t) (iblk m c 2 t) (iblk m c 3 t) (iblk m c 4 t) (iblk m c 5 t) (iblk m c 6 t) (sc0 m c) (sc1 m c) (sc2 m c) := dif_neg h

/-- The region invariant before position `n`: before the first point the scratch buffers hold anything; afterwards what
    the first point stored. -/
def PhiS (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (sc0 m c) ∗ owns (c : Thread nD τ) scM1 fullShare (sc1 m c) ∗ owns (c : Thread nD τ) scM2 fullShare (sc2 m c))

theorem PhiS_pos (c : Dev nD) (n : ℕ) (hz : n ≠ 0) :
    PhiS m c n = iprop(owns (c : Thread nD τ) scM0 fullShare (sc0 m c) ∗ owns (c : Thread nD τ) scM1 fullShare (sc1 m c) ∗ owns (c : Thread nD τ) scM2 fullShare (sc2 m c)) := by
  cases n with
  | zero => exact absurd rfl hz
  | succ n => rfl

/-! ## The proof data -/

/-- Each window's share of its array: the adjacency matrix's two windows take complementary halves. -/
def qOf (w : Fin cfg0.W) : PosShare TreeShare :=
  if w.val = 0 then fullShare.left else if w.val = 1 then fullShare.right else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q := qOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 1600000 in
/-- The body at any point.  The inputs' memrefs hold their blocks.  At the first point the invariant hands the body the
    scratch buffers at anything and takes them back at what it stored; at a later point it hands them over at those
    contents and takes them back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scM0 fullShare (sc0 m c) ∗ owns (c : Thread nD τ) scM1 fullShare (sc1 m c) ∗ owns (c : Thread nD τ) scM2 fullShare (sc2 m c)) from rfl]
  rw [leaves_eq m c 0 t, leaves_eq m c 1 t, leaves_eq m c 2 t, leaves_eq m c 3 t, leaves_eq m c 4 t, leaves_eq m c 5 t, leaves_eq m c 6 t, leaves_eq m c 7 t]
  rw [after0, after1, after2, after3, after4, after5, after6, after7]
  rw [show (dats m 0 c).Φ t.castSucc = PhiS m c t.val from rfl]
  have hN : t.val < 25 := lt_of_lt_of_eq t.isLt (show cfg0.N = 25 from N_0)
  by_cases h0 : t.val % 25 = 0
  · have hz : t.val = 0 := by omega
    rw [outAt_first m c t h0]
    unfold outF7
    obtain rfl : t = t0 := Fin.ext hz
    unfold sc0 sc1 sc2 scF0 scF1 scF2
    rw [show PhiS m c (t0 : Fin cfg0.N).val = Pipeline.scopedRest (Ix := Unit) (Name := ℕ) (U := UR sig nD τ) (Lvl := ℕ) (Val := Elt F) spec0 c from rfl, scoped_eq]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) _ _ _ _ _ _ _ _ _ _ _ _ _ _ _ _ _ _ _ _ _ _ ((hcond0 t0).mpr h0) (iblk m c 0 t0) (iblk m c 1 t0) (iblk m c 2 t0) (iblk m c 3 t0) (iblk m c 4 t0) (iblk m c 5 t0) (iblk m c 6 t0)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, ⟨%e7, H7⟩, ⟨%es0, HS0⟩, ⟨%es1, HS1⟩, ⟨%es2, HS2⟩⟩
    isplitl [HS0 HS1 HS2]
    · isplitl [HS0]
      · unfold owns; iexists _; isplitr
        swap; · iexact HS0
        ipureintro; exact View.read_writes_of_cover _ _ _ _ _ (coverFS0 c _ _ _ _ _ _ _ _ _ _ _ _ _ _ _ _ _ _ _ _ _ _ _ _ _ _ _ _ _ _ _ )
      isplitl [HS1]
      · unfold owns; iexists _; isplitr
        swap; · iexact HS1
        ipureintro; exact View.read_writes_of_cover _ _ _ _ _ (coverFS1 c _ _ _ _ _ _ _ _ _ _ _ _ _ _ _ _ _ _ _ _ _ _ _ _ _ _ _ _ _ _ _ )
      unfold owns; iexists _; isplitr
      swap; · iexact HS2
      ipureintro; exact View.read_writes_of_cover _ _ _ _ _ (coverFS2 c _ _ _ _ _ _ _ _ _ _ _ _ _ _ _ _ _ _ _ _ _ _ _ _ _ _ _ _ _ _ _ )
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverF7 c _ _ _ _ _ _ _ _ _ _ _ _ _ _ _ _ _ _ _ _ _ _ _ _ _ _ _ _ _ _ _ )
  · have hz : t.val ≠ 0 := fun h => h0 (by rw [h])
    rw [outAt_later m c t h0]
    unfold outL7
    rw [PhiS_pos m c _ hz]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ _ _ _ _ _ _ (fun hh => h0 ((hcond0 t).mp hh)) (iblk m c 0 t) (iblk m c 1 t) (iblk m c 2 t) (iblk m c 3 t) (iblk m c 4 t) (iblk m c 5 t) (iblk m c 6 t) (sc0 m c) (sc1 m c) (sc2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, ⟨%e7, H7⟩, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverL7 c _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## Entering and leaving the region -/

theorem hin (c : Dev nD) : (Pipeline.scopedRest (Ix := Unit) (Name := ℕ) (U := UR sig nD τ) (Lvl := ℕ) (Val := Elt F) spec0 c : sProp 𝕄) ⊢ (dats m 0 c).Φ 0 :=
  Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scoped_eq]
  iintro ⟨H0, H1, H2⟩
  isplitl [H0]; · iexists _; iexact H0
  isplitl [H1]; · iexists _; iexact H1
  iexists _; iexact H2

/-- The distinct buffers behind the windows' arrays, divided among the windows: the adjacency matrix between its two
    windows, every other array whole to its one window. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  classical
  have e : (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_arg4) ↦{fullShare} V m c main_arg4)
          ∗ (((c : Thread nD τ).loc main_v0) ↦{fullShare} V m c main_v0) ∗ (((c : Thread nD τ).loc main_v1) ↦{fullShare} V m c main_v1)
          ∗ (((c : Thread nD τ).loc main_v2) ↦{fullShare} V m c main_v2)) :=
    bigSep_eq_bigSepL_of_eq [main_arg1, main_arg0, main_arg2, main_arg4, main_v0, main_v1, main_v2] (by decide) (by decide) _
  have e2 : (dats m 0 c).arrays ((dats m 0 c).arrAt · 0)
      = bigSep Finset.univ fun w : Fin cfg0.W => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  have s0 : (dats m 0 c).share 0 = fullShare.left := rfl
  have a0 : (dats m 0 c).arrAt 0 0 = V m c (Pipeline.arrRef spec0 0) := rfl
  have s1 : (dats m 0 c).share 1 = fullShare.right := rfl
  have a1 : (dats m 0 c).arrAt 1 0 = V m c (Pipeline.arrRef spec0 1) := rfl
  have s2 : (dats m 0 c).share 2 = fullShare := rfl
  have a2 : (dats m 0 c).arrAt 2 0 = V m c (Pipeline.arrRef spec0 2) := rfl
  have s3 : (dats m 0 c).share 3 = fullShare := rfl
  have a3 : (dats m 0 c).arrAt 3 0 = V m c (Pipeline.arrRef spec0 3) := rfl
  have s4 : (dats m 0 c).share 4 = fullShare := rfl
  have a4 : (dats m 0 c).arrAt 4 0 = V m c (Pipeline.arrRef spec0 4) := rfl
  have s5 : (dats m 0 c).share 5 = fullShare := rfl
  have a5 : (dats m 0 c).arrAt 5 0 = V m c (Pipeline.arrRef spec0 5) := rfl
  have s6 : (dats m 0 c).share 6 = fullShare := rfl
  have a6 : (dats m 0 c).arrAt 6 0 = V m c (Pipeline.arrRef spec0 6) := rfl
  have s7 : (dats m 0 c).share 7 = fullShare := rfl
  have a7 : (dats m 0 c).arrAt 7 0 = V m c (Pipeline.arrRef spec0 7) := rfl
  rw [e, e2, bigSep_W0]
  simp only [s0, s1, s2, s3, s4, s5, s6, s7, a0, a1, a2, a3, a4, a5, a6, a7]
  iintro ⟨H1, H0, H2, H4, Hv0, Hv1, Hv2⟩
  ihave Hs := (pointsTo_share (PosShare.mem_left_op_right fullShare)).1 $$ H1
  icases Hs with ⟨Ha, Hb⟩
  isplitl [Ha]; · iexact Ha
  isplitl [Hb]; · iexact Hb
  isplitl [H0]; · iexact H0
  isplitl [H2]; · iexact H2
  isplitl [H4]; · iexact H4
  isplitl [Hv0]; · iexact Hv0
  isplitl [Hv1]; · iexact Hv1
  iexact Hv2

/-! ## The run and the frame -/

set_option backward.isDefEq.respectTransparency.types false in
theorem run_main : θ_run defs (onTc (τ := τ) (main (F := F))) (s₀ m ρ) (Pipeline.FramePost cfgs (dats m) 0 (V m)) :=
  Cert.Lib.FrameShared.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- THE FRAME at any `F`: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 (Pipeline.mem_restRefs_of main_arg3 (by decide) (by decide))).trans (V_main_arg3 m c),
     ((h c).1 4).trans (((dats m 0 c).arrAt_in 4 rfl _).trans ((A_eq m c 4).trans (V_main_arg4 m c))),
     ((h c).2 main_arg5 (Pipeline.mem_restRefs_of main_arg5 (by decide) (by decide))).trans (V_main_arg5 m c)⟩)
    (run_main m ρ)

end Cert.Kernel.Hand

end
-- ==== Proof.IdealRuns.lean ====
/-
  What the two runs of the fused kernel's body share.  The grid has 25 points; point `t` handles rows
  `400·t … 400·t + 399` of the result.  The body first asks whether it is at the grid's first point: only there does it
  fill its three scratch buffers (the node features and the two transposed weight matrices, each rounded to bf16), and at
  every point it then reads them.  So the body has two control cases, "first point" and "later point".
  Here: the contents of every buffer when the region is entered (after the two reshapes of the bias vectors), each
  window's block at a point read off those contents, the branch condition decided over the grid, and names for the
  staging and scratch memrefs the pipeline passes the body.
-/
import proofs.«101437_g85229331022396_cont_9to1_m_1172_8_alg».proof.Proof.Gen.KernelIdeal.Launch
import proofs.«101437_g85229331022396_cont_9to1_m_1172_8_alg».proof.Proof.Gen.KernelIdeal.Skeleton
import proofs.«101437_g85229331022396_cont_9to1_m_1172_8_alg».proof.Proof.Gen.KernelIdeal.Points
import proofs.«101437_g85229331022396_cont_9to1_m_1172_8_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the bias vectors. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- "This is the grid's first point", as the body computes it from the grid coordinate. -/
abbrev cond0 (i : grid0.Coords) : Prop := (Scalar.cmpi .ne (Scalar.extui (Scalar.cmpi .eq (BitVec.ofNat 32 (i 0).val) 0#32)) 0#32) = 1#1
/-- It holds at point 0 only — decided over the 25 points. -/
theorem hcond0 : ∀ t : Fin cfg0.N, cond0 (grid0.coords t) ↔ t.val % 25 = 0 :=
  (by decide +kernel : ∀ t : Fin grid0.N, cond0 (grid0.coords t) ↔ t.val % 25 = 0)

/-- No window is ever idle. -/
theorem liveAt : ∀ (w : Fin cfg0.W) (t : Fin cfg0.N), cfg0.idle w (grid0.coords t) = false := by decide +kernel

/-! ## The memrefs the body is called with -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch operands: the bf16 copy of the node features, and of each transposed weight matrix. -/
abbrev scM0 : Memref sig .tc .vmem S10000x128 .bf16 := Memref.whole cc0_scratch0
abbrev scM1 : Memref sig .tc .vmem S128x128 .bf16 := Memref.whole cc0_scratch1
abbrev scM2 : Memref sig .tc .vmem S128x128 .bf16 := Memref.whole cc0_scratch2
/-- Views through which buffer contents are stated (the choice of buffer does not matter). -/
abbrev VO7 : View sig .tc .vmem S400x128 .f32 := (Memref.whole cc0_stg7_0 : Memref sig .tc .vmem S400x128 .f32).view
abbrev VS0 : View sig .tc .vmem S10000x128 .bf16 := scM0.view
abbrev VS1 : View sig .tc .vmem S128x128 .bf16 := scM1.view
abbrev VS2 : View sig .tc .vmem S128x128 .bf16 := scM2.view

/-- The scoped buffers that are no staging buffer are the three scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.KernelIdeal.Hand

end
-- ==== Proof.IdealRunFirst.lean ====
/-
  The body's run at the grid's FIRST point: the branch is taken, the three scratch buffers are filled (each stored whole,
  so whatever they held is gone), and then both 200-row halves of the output block are computed and stored.  The run
  is by symbolic execution; what each buffer the body stores into ends with is found, as a list of stored pieces, by
  that run.
-/
import proofs.«101437_g85229331022396_cont_9to1_m_1172_8_alg».proof.Proof.IdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point, on whole memrefs: the seven inputs at their contents, the output buffer and the three
    scratch buffers at anything.  It runs to the continuation holding the inputs as they were and each of the other four
    with the pieces it stored. -/
noncomputable def runFirst (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i)
    (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    Σ' (L7 : List (View.Piece (Elt F) S400x128 .f32)) (LS0 : List (View.Piece (Elt F) S10000x128 .bf16)) (LS1 : List (View.Piece (Elt F) S128x128 .bf16)), { LS2 : List (View.Piece (Elt F) S128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__ngcf_fused i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__ngcf_fused_eq_skeleton]; unfold cc0__ngcf_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    iexists _; iexact HS2

end Cert.KernelIdeal.Hand

end
-- ==== Proof.IdealRunLater.lean ====
/-
  The body's run at a LATER point: the branch is not taken, so the scratch buffers are only read — they are handed to the
  body at the contents the first point left and come back unchanged — and both 200-row halves of the output block are
  computed and stored.
-/
import proofs.«101437_g85229331022396_cont_9to1_m_1172_8_alg».proof.Proof.IdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point, on whole memrefs: the seven inputs and the three scratch buffers at their contents, the
    output buffer at anything.  It runs to the continuation holding all ten as they were and the output buffer with the
    pieces it stored. -/
noncomputable def runLater (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i)
    (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) :
    { L7 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0__ngcf_fused i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__ngcf_fused_eq_skeleton]; unfold cc0__ngcf_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Hand

end
-- ==== Proof.IdealFrame.lean ====
/-
  The frame of the fused kernel: every weakly fair execution of @main terminates, nothing faults, and the six argument
  arrays end unchanged.

  What the buffers hold, point by point.  Each of the seven input windows holds its block of its array at every point.
  The three scratch buffers hold, after every point, what the FIRST point stored into them (later points only read
  them).  The output window's staging buffer holds, after point `t`, the 400 rows the body stored there: the first
  point's run gives them at `t = 0`, the later-point run — over the scratch contents the first point left — elsewhere.
  The adjacency matrix is handed to the kernel through two windows (its even and its odd 200-row stripes); the two
  windows hold it at complementary half shares, which is all two readers need.
-/
import proofs.«101437_g85229331022396_cont_9to1_m_1172_8_alg».proof.Proof.IdealRunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs' stores leave -/

theorem coverF7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S400x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).1 S200x128.size (by sl_kernel_rfl) y
theorem coverFS0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S10000x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.1 S10000x128.size (by sl_kernel_rfl) y
theorem coverFS1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S128x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.2.1 S128x128.size (by sl_kernel_rfl) y
theorem coverFS2 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (y : S128x128.Idx) :
    ∃ pc ∈ (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1 S128x128.size (by sl_kernel_rfl) y
theorem coverL7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) (y : S400x128.Idx) :
    ∃ pc ∈ (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1, y ∈ pc.1.set :=
  View.cover_of_tiledL (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1 S200x128.size (by sl_kernel_rfl) y

/-- What the first point leaves in the output buffer and in each scratch buffer: its pieces read back. -/
def outF7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S400x128 .f32 :=
  VO7.read (Elt F) (VO7.writes (Elt F) VO7.junk (runFirst c i arg1 harg1 arg2 harg2 arg3 harg3 arg4 harg4 arg5 harg5 arg6 harg6 arg7 harg7 arg8 harg8 arg9 harg9 arg10 harg10 arg11 harg11 hc x0 x1 x2 x3 x4 x5 x6).1)
def scF0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S10000x128 .bf16 :=
  VS0.read (Elt F) (VS0.writes (Elt F) VS0.junk (runFirst c i arg1 harg1 arg2 harg2 arg3 harg3 arg4 harg4 arg5 harg5 arg6 harg6 arg7 harg7 arg8 harg8 arg9 harg9 arg10 harg10 arg11 harg11 hc x0 x1 x2 x3 x4 x5 x6).2.1)
def scF1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S128x128 .bf16 :=
  VS1.read (Elt F) (VS1.writes (Elt F) VS1.junk (runFirst c i arg1 harg1 arg2 harg2 arg3 harg3 arg4 harg4 arg5 harg5 arg6 harg6 arg7 harg7 arg8 harg8 arg9 harg9 arg10 harg10 arg11 harg11 hc x0 x1 x2 x3 x4 x5 x6).2.2.1)
def scF2 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) : Vec F S128x128 .bf16 :=
  VS2.read (Elt F) (VS2.writes (Elt F) VS2.junk (runFirst c i arg1 harg1 arg2 harg2 arg3 harg3 arg4 harg4 arg5 harg5 arg6 harg6 arg7 harg7 arg8 harg8 arg9 harg9 arg10 harg10 arg11 harg11 hc x0 x1 x2 x3 x4 x5 x6).2.2.2.1)
/-- What a later point leaves in the output buffer. -/
def outL7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) : Vec F S400x128 .f32 :=
  VO7.read (Elt F) (VO7.writes (Elt F) VO7.junk (runLater c i arg1 harg1 arg2 harg2 arg3 harg3 arg4 harg4 arg5 harg5 arg6 harg6 arg7 harg7 arg8 harg8 arg9 harg9 arg10 harg10 arg11 harg11 hc x0 x1 x2 x3 x4 x5 x6 xs0 xs1 xs2).1)

/-! ## Point by point -/

/-- The grid's first point. -/
abbrev t0 : Fin cfg0.N := ⟨0, by decide⟩
theorem hc_t0 : cond0 (grid0.coords t0) := (hcond0 t0).mpr rfl

/-- The scratch buffers' contents from the first point on. -/
def sc0 (c : Dev nD) : Vec F S10000x128 .bf16 := scF0 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)
def sc1 (c : Dev nD) : Vec F S128x128 .bf16 := scF1 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)
def sc2 (c : Dev nD) : Vec F S128x128 .bf16 := scF2 c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM0 (Memref.isWhole_whole _) scM1 (Memref.isWhole_whole _) scM2 (Memref.isWhole_whole _) hc_t0 (iblk m c 0 t0) (iblk m c 1 t0) (iblk m c 2 t0) (iblk m c 3 t0) (iblk m c 4 t0) (iblk m c 5 t0) (iblk m c 6 t0)

/-- The output window's staging buffer after point `t`. -/
def outAt (c : Dev nD) (t : Fin cfg0.N) : Vec F S400x128 .f32 :=
  if h : t.val % 25 = 0 then outF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) ((hcond0 t).mpr h) (iblk m c 0 t) (iblk m c 1 t) (iblk m c 2 t) (iblk m c 3 t) (iblk m c 4 t) (iblk m c 5 t) (iblk m c 6 t)
  else outL7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (fun hh => h ((hcond0 t).mp hh)) (iblk m c 0 t) (iblk m c 1 t) (iblk m c 2 t) (iblk m c 3 t) (iblk m c 4 t) (iblk m c 5 t) (iblk m c 6 t) (sc0 m c) (sc1 m c) (sc2 m c)

theorem outAt_first (c : Dev nD) (t : Fin cfg0.N) (h : t.val % 25 = 0) :
    outAt m c t = outF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) ((hcond0 t).mpr h) (iblk m c 0 t) (iblk m c 1 t) (iblk m c 2 t) (iblk m c 3 t) (iblk m c 4 t) (iblk m c 5 t) (iblk m c 6 t) := dif_pos h
theorem outAt_later (c : Dev nD) (t : Fin cfg0.N) (h : ¬t.val % 25 = 0) :
    outAt m c t = outL7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (fun hh => h ((hcond0 t).mp hh)) (iblk m c 0 t) (iblk m c 1 t) (iblk m c 2 t) (iblk m c 3 t) (iblk m c 4 t) (iblk m c 5 t) (iblk m c 6 t) (sc0 m c) (sc1 m c) (sc2 m c) := dif_neg h

/-- The region invariant before position `n`: before the first point the scratch buffers hold anything; afterwards what
    the first point stored. -/
def PhiS (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (sc0 m c) ∗ owns (c : Thread nD τ) scM1 fullShare (sc1 m c) ∗ owns (c : Thread nD τ) scM2 fullShare (sc2 m c))

theorem PhiS_pos (c : Dev nD) (n : ℕ) (hz : n ≠ 0) :
    PhiS m c n = iprop(owns (c : Thread nD τ) scM0 fullShare (sc0 m c) ∗ owns (c : Thread nD τ) scM1 fullShare (sc1 m c) ∗ owns (c : Thread nD τ) scM2 fullShare (sc2 m c)) := by
  cases n with
  | zero => exact absurd rfl hz
  | succ n => rfl

/-! ## The proof data -/

/-- Each window's share of its array: the adjacency matrix's two windows take complementary halves. -/
def qOf (w : Fin cfg0.W) : PosShare TreeShare :=
  if w.val = 0 then fullShare.left else if w.val = 1 then fullShare.right else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q := qOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 1600000 in
/-- The body at any point.  The inputs' memrefs hold their blocks.  At the first point the invariant hands the body the
    scratch buffers at anything and takes them back at what it stored; at a later point it hands them over at those
    contents and takes them back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = iprop(owns (c : Thread nD τ) scM0 fullShare (sc0 m c) ∗ owns (c : Thread nD τ) scM1 fullShare (sc1 m c) ∗ owns (c : Thread nD τ) scM2 fullShare (sc2 m c)) from rfl]
  rw [leaves_eq m c 0 t, leaves_eq m c 1 t, leaves_eq m c 2 t, leaves_eq m c 3 t, leaves_eq m c 4 t, leaves_eq m c 5 t, leaves_eq m c 6 t, leaves_eq m c 7 t]
  rw [after0, after1, after2, after3, after4, after5, after6, after7]
  rw [show (dats m 0 c).Φ t.castSucc = PhiS m c t.val from rfl]
  have hN : t.val < 25 := lt_of_lt_of_eq t.isLt (show cfg0.N = 25 from N_0)
  by_cases h0 : t.val % 25 = 0
  · have hz : t.val = 0 := by omega
    rw [outAt_first m c t h0]
    unfold outF7
    obtain rfl : t = t0 := Fin.ext hz
    unfold sc0 sc1 sc2 scF0 scF1 scF2
    rw [show PhiS m c (t0 : Fin cfg0.N).val = Pipeline.scopedRest (Ix := Unit) (Name := ℕ) (U := UR sig nD τ) (Lvl := ℕ) (Val := Elt F) spec0 c from rfl, scoped_eq]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) _ _ _ _ _ _ _ _ _ _ _ _ _ _ _ _ _ _ _ _ _ _ ((hcond0 t0).mpr h0) (iblk m c 0 t0) (iblk m c 1 t0) (iblk m c 2 t0) (iblk m c 3 t0) (iblk m c 4 t0) (iblk m c 5 t0) (iblk m c 6 t0)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, ⟨%e7, H7⟩, ⟨%es0, HS0⟩, ⟨%es1, HS1⟩, ⟨%es2, HS2⟩⟩
    isplitl [HS0 HS1 HS2]
    · isplitl [HS0]
      · unfold owns; iexists _; isplitr
        swap; · iexact HS0
        ipureintro; exact View.read_writes_of_cover _ _ _ _ _ (coverFS0 c _ _ _ _ _ _ _ _ _ _ _ _ _ _ _ _ _ _ _ _ _ _ _ _ _ _ _ _ _ _ _ )
      isplitl [HS1]
      · unfold owns; iexists _; isplitr
        swap; · iexact HS1
        ipureintro; exact View.read_writes_of_cover _ _ _ _ _ (coverFS1 c _ _ _ _ _ _ _ _ _ _ _ _ _ _ _ _ _ _ _ _ _ _ _ _ _ _ _ _ _ _ _ )
      unfold owns; iexists _; isplitr
      swap; · iexact HS2
      ipureintro; exact View.read_writes_of_cover _ _ _ _ _ (coverFS2 c _ _ _ _ _ _ _ _ _ _ _ _ _ _ _ _ _ _ _ _ _ _ _ _ _ _ _ _ _ _ _ )
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverF7 c _ _ _ _ _ _ _ _ _ _ _ _ _ _ _ _ _ _ _ _ _ _ _ _ _ _ _ _ _ _ _ )
  · have hz : t.val ≠ 0 := fun h => h0 (by rw [h])
    rw [outAt_later m c t h0]
    unfold outL7
    rw [PhiS_pos m c _ hz]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ _ _ _ _ _ _ (fun hh => h0 ((hcond0 t).mp hh)) (iblk m c 0 t) (iblk m c 1 t) (iblk m c 2 t) (iblk m c 3 t) (iblk m c 4 t) (iblk m c 5 t) (iblk m c 6 t) (sc0 m c) (sc1 m c) (sc2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iintro ⟨H0, H1, H2, H3, H4, H5, H6, ⟨%e7, H7⟩, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverL7 c _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## Entering and leaving the region -/

theorem hin (c : Dev nD) : (Pipeline.scopedRest (Ix := Unit) (Name := ℕ) (U := UR sig nD τ) (Lvl := ℕ) (Val := Elt F) spec0 c : sProp 𝕄) ⊢ (dats m 0 c).Φ 0 :=
  Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scoped_eq]
  iintro ⟨H0, H1, H2⟩
  isplitl [H0]; · iexists _; iexact H0
  isplitl [H1]; · iexists _; iexact H1
  iexists _; iexact H2

/-- The distinct buffers behind the windows' arrays, divided among the windows: the adjacency matrix between its two
    windows, every other array whole to its one window. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  classical
  have e : (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_arg4) ↦{fullShare} V m c main_arg4)
          ∗ (((c : Thread nD τ).loc main_v0) ↦{fullShare} V m c main_v0) ∗ (((c : Thread nD τ).loc main_v1) ↦{fullShare} V m c main_v1)
          ∗ (((c : Thread nD τ).loc main_v2) ↦{fullShare} V m c main_v2)) :=
    bigSep_eq_bigSepL_of_eq [main_arg1, main_arg0, main_arg2, main_arg4, main_v0, main_v1, main_v2] (by decide) (by decide) _
  have e2 : (dats m 0 c).arrays ((dats m 0 c).arrAt · 0)
      = bigSep Finset.univ fun w : Fin cfg0.W => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  have s0 : (dats m 0 c).share 0 = fullShare.left := rfl
  have a0 : (dats m 0 c).arrAt 0 0 = V m c (Pipeline.arrRef spec0 0) := rfl
  have s1 : (dats m 0 c).share 1 = fullShare.right := rfl
  have a1 : (dats m 0 c).arrAt 1 0 = V m c (Pipeline.arrRef spec0 1) := rfl
  have s2 : (dats m 0 c).share 2 = fullShare := rfl
  have a2 : (dats m 0 c).arrAt 2 0 = V m c (Pipeline.arrRef spec0 2) := rfl
  have s3 : (dats m 0 c).share 3 = fullShare := rfl
  have a3 : (dats m 0 c).arrAt 3 0 = V m c (Pipeline.arrRef spec0 3) := rfl
  have s4 : (dats m 0 c).share 4 = fullShare := rfl
  have a4 : (dats m 0 c).arrAt 4 0 = V m c (Pipeline.arrRef spec0 4) := rfl
  have s5 : (dats m 0 c).share 5 = fullShare := rfl
  have a5 : (dats m 0 c).arrAt 5 0 = V m c (Pipeline.arrRef spec0 5) := rfl
  have s6 : (dats m 0 c).share 6 = fullShare := rfl
  have a6 : (dats m 0 c).arrAt 6 0 = V m c (Pipeline.arrRef spec0 6) := rfl
  have s7 : (dats m 0 c).share 7 = fullShare := rfl
  have a7 : (dats m 0 c).arrAt 7 0 = V m c (Pipeline.arrRef spec0 7) := rfl
  rw [e, e2, bigSep_W0]
  simp only [s0, s1, s2, s3, s4, s5, s6, s7, a0, a1, a2, a3, a4, a5, a6, a7]
  iintro ⟨H1, H0, H2, H4, Hv0, Hv1, Hv2⟩
  ihave Hs := (pointsTo_share (PosShare.mem_left_op_right fullShare)).1 $$ H1
  icases Hs with ⟨Ha, Hb⟩
  isplitl [Ha]; · iexact Ha
  isplitl [Hb]; · iexact Hb
  isplitl [H0]; · iexact H0
  isplitl [H2]; · iexact H2
  isplitl [H4]; · iexact H4
  isplitl [Hv0]; · iexact Hv0
  isplitl [Hv1]; · iexact Hv1
  iexact Hv2

/-! ## The run and the frame -/

set_option backward.isDefEq.respectTransparency.types false in
theorem run_main : θ_run defs (onTc (τ := τ) (main (F := F))) (s₀ m ρ) (Pipeline.FramePost cfgs (dats m) 0 (V m)) :=
  Cert.Lib.FrameShared.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- THE FRAME at any `F`: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 (Pipeline.mem_restRefs_of main_arg3 (by decide) (by decide))).trans (V_main_arg3 m c),
     ((h c).1 4).trans (((dats m 0 c).arrAt_in 4 rfl _).trans ((A_eq m c 4).trans (V_main_arg4 m c))),
     ((h c).2 main_arg5 (Pipeline.mem_restRefs_of main_arg5 (by decide) (by decide))).trans (V_main_arg5 m c)⟩)
    (run_main m ρ)

end Cert.KernelIdeal.Hand

end
-- ==== Proof.IdealPieces.lean ====
/-
  What the runs' stores leave, as values.  Each scratch buffer is stored once, whole: it holds that store's payload (the
  node features, or a transposed weight matrix, rounded to bf16).  The output buffer is stored in two 200-row pieces, the
  lower rows by the first half of the body and the upper rows by the second; a load of a whole buffer reads its contents,
  and at the first point a load of a scratch buffer reads back what was just stored.
-/
import proofs.«101437_g85229331022396_cont_9to1_m_1172_8_alg».proof.Proof.IdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The 200 rows of the node features the first half multiplies in: those of its stripe. -/
abbrev xrowsA (i : grid0.Coords) (x2 : Vec F S10000x128 .f32) : Vec F S200x128 .f32 :=
  View.ld x2 (Rect.unit (s := S10000x128) (k0_off1 i) S200x128.size (k0_off1_inb i))
/-- And the second half's. -/
abbrev xrowsB (i : grid0.Coords) (x2 : Vec F S10000x128 .f32) : Vec F S200x128 .f32 :=
  View.ld x2 (Rect.unit (s := S10000x128) (k0_off2 i) S200x128.size (k0_off2_inb i))

theorem scF0_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    scF0 c i arg1 harg1 arg2 harg2 arg3 harg3 arg4 harg4 arg5 harg5 arg6 harg6 arg7 harg7 arg8 harg8 arg9 harg9 arg10 harg10 arg11 harg11 hc x0 x1 x2 x3 x4 x5 x6 = k0_pay2 x2 := by
  unfold scF0
  rw [View.read_writes_junk_eq_canon]
  unfold runFirst
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S200x10000) hz, View.ld_unit_zero (S := S10000x128) hz, View.ld_unit_zero (S := S128x128) hz, View.ld_unit_zero (S := S1x128) hz]

theorem scF1_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    scF1 c i arg1 harg1 arg2 harg2 arg3 harg3 arg4 harg4 arg5 harg5 arg6 harg6 arg7 harg7 arg8 harg8 arg9 harg9 arg10 harg10 arg11 harg11 hc x0 x1 x2 x3 x4 x5 x6 = k0_pay3 x3 := by
  unfold scF1
  rw [View.read_writes_junk_eq_canon]
  unfold runFirst
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S200x10000) hz, View.ld_unit_zero (S := S10000x128) hz, View.ld_unit_zero (S := S128x128) hz, View.ld_unit_zero (S := S1x128) hz]

theorem scF2_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    scF2 c i arg1 harg1 arg2 harg2 arg3 harg3 arg4 harg4 arg5 harg5 arg6 harg6 arg7 harg7 arg8 harg8 arg9 harg9 arg10 harg10 arg11 harg11 hc x0 x1 x2 x3 x4 x5 x6 = k0_pay4 x4 := by
  unfold scF2
  rw [View.read_writes_junk_eq_canon]
  unfold runFirst
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S200x10000) hz, View.ld_unit_zero (S := S10000x128) hz, View.ld_unit_zero (S := S128x128) hz, View.ld_unit_zero (S := S1x128) hz]

/-- A later point's output block: the two halves over the scratch contents handed in. -/
theorem outL7_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : ¬cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) (xs0 : Vec F S10000x128 .bf16) (xs1 : Vec F S128x128 .bf16) (xs2 : Vec F S128x128 .bf16) :
    outL7 c i arg1 harg1 arg2 harg2 arg3 harg3 arg4 harg4 arg5 harg5 arg6 harg6 arg7 harg7 arg8 harg8 arg9 harg9 arg10 harg10 arg11 harg11 hc x0 x1 x2 x3 x4 x5 x6 xs0 xs1 xs2
      = View.canon [(⟨Rect.unit (s := S400x128) ![200, 0] S200x128.size inb_S400x128_S200x128_200_0, k0_pay1 x1 xs0 (xrowsB i x2) xs1 xs2 x5 x6⟩ : View.Piece (Elt F) S400x128 .f32),
          ⟨Rect.unit (s := S400x128) ![0, 0] S200x128.size inb_S400x128_S200x128_0_0, k0_pay5 x0 xs0 (xrowsA i x2) xs1 xs2 x5 x6⟩] := by
  unfold outL7
  rw [View.read_writes_junk_eq_canon]
  unfold runLater
  dsimp only
  sl_unfold_words
  simp only [View.readAt_eq_ld, harg1.read_unread, harg2.read_unread, harg3.read_unread, harg4.read_unread, harg5.read_unread, harg6.read_unread, harg7.read_unread, harg9.read_unread, harg10.read_unread, harg11.read_unread, View.ld_unit_zero (S := S200x10000) hz, View.ld_unit_zero (S := S10000x128) hz, View.ld_unit_zero (S := S128x128) hz, View.ld_unit_zero (S := S1x128) hz]
  rfl

/-- The first point's output block: the two halves over what the point itself stored into the scratch buffers. -/
theorem outF7_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (arg10 : Memref sig .tc .vmem S128x128 .bf16) (harg10 : arg10.IsWhole) (arg11 : Memref sig .tc .vmem S128x128 .bf16) (harg11 : arg11.IsWhole) (hc : cond0 i) (x0 : Vec F S200x10000 .f32) (x1 : Vec F S200x10000 .f32) (x2 : Vec F S10000x128 .f32) (x3 : Vec F S128x128 .f32) (x4 : Vec F S128x128 .f32) (x5 : Vec F S1x128 .f32) (x6 : Vec F S1x128 .f32) :
    outF7 c i arg1 harg1 arg2 harg2 arg3 harg3 arg4 harg4 arg5 harg5 arg6 harg6 arg7 harg7 arg8 harg8 arg9 harg9 arg10 harg10 arg11 harg11 hc x0 x1 x2 x3 x4 x5 x6
      = View.canon [(⟨Rect.unit (s := S400x128) ![200, 0] S200x128.size inb_S400x128_S200x128_200_0, k0_pay1 x1 (k0_pay2 x2) (xrowsB i x2) (k0_pay3 x3) (k0_pay4 x4) x5 x6⟩ : View.Piece (Elt F) S400x128 .f32),
          ⟨Rect.unit (s := S400x128) ![0, 0] S200x128.size inb_S400x128_S200x128_0_0, k0_pay5 x0 (k0_pay2 x2) (xrowsA i x2) (k0_pay3 x3) (k0_pay4 x4) x5 x6⟩] := by
  unfold outF7
  rw [View.read_writes_junk_eq_canon]
  unfold runFirst
  dsimp only
  sl_unfold_words
  simp only [View.readCov_unit_zero (S := S10000x128) arg9.view hz, View.readCov_unit_zero (S := S128x128) arg10.view hz, View.readCov_unit_zero (S := S128x128) arg11.view hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S200x10000) hz, View.ld_unit_zero (S := S10000x128) hz, View.ld_unit_zero (S := S128x128) hz, View.ld_unit_zero (S := S1x128) hz]
  rfl

end Cert.KernelIdeal.Hand

end
-- ==== Proof.IdealBlocks.lean ====
/-
  Where each block sits in its array.  Point `t` of the 25 handles rows `400·t … 400·t + 399`: its first adjacency
  stripe is rows `400·t … 400·t + 199` of the adjacency matrix, its second the next 200; the node features and the two
  weight matrices are staged whole; each bias vector arrives as a one-row matrix, the reshape of the argument vector.
  The rows of the node features a half multiplies in are those of its stripe.
-/
import proofs.«101437_g85229331022396_cont_9to1_m_1172_8_alg».proof.Proof.IdealPieces
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps and the two row offsets, decided over the grid. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ k0_off1 (grid0.coords t) (0 : Fin 2) = 400 * t.val ∧ k0_off1 (grid0.coords t) (1 : Fin 2) = 0
    ∧ k0_off2 (grid0.coords t) (0 : Fin 2) = 400 * t.val + 200 ∧ k0_off2 (grid0.coords t) (1 : Fin 2) = 0 :=
  (by decide +kernel : ∀ t : Fin grid0.N, _)

/-- The first stripe: rows `400·t + p` of the adjacency matrix. -/
theorem adjA_apply (c : Dev nD) (t : Fin cfg0.N) (p : Fin 200) (k : Fin 10000) (hr : 400 * t.val + p.val < 10000) :
    (iblk m c 0 t : Vec F S200x10000 .f32) (ix2 p k) = V m c main_arg1 (ix2 ⟨400 * t.val + p.val, hr⟩ k) := by
  obtain ⟨e0, e1, -⟩ := idx_facts t
  unfold iblk
  rw [View.read_apply]
  show V m c main_arg1 _ = V m c main_arg1 _
  congr 1
  funext a
  apply Fin.ext
  match a with
  | ⟨0, _⟩ => show win0_0.index t (0 : Fin 2) * 200 + 1 * p.val = 400 * t.val + p.val; rw [e0]; omega
  | ⟨1, _⟩ => show win0_0.index t (1 : Fin 2) * 10000 + 1 * k.val = k.val; rw [e1]; omega

/-- The second stripe: rows `400·t + 200 + p`. -/
theorem adjB_apply (c : Dev nD) (t : Fin cfg0.N) (p : Fin 200) (k : Fin 10000) (hr : 400 * t.val + 200 + p.val < 10000) :
    (iblk m c 1 t : Vec F S200x10000 .f32) (ix2 p k) = V m c main_arg1 (ix2 ⟨400 * t.val + 200 + p.val, hr⟩ k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 200 + 1 * p.val = 400 * t.val + 200 + p.val; rw [e0]; omega
  | ⟨1, _⟩ => show win0_1.index t (1 : Fin 2) * 10000 + 1 * k.val = k.val; rw [e1]; omega

/-- The node features, whole. -/
theorem xall_apply (c : Dev nD) (t : Fin cfg0.N) (k : Fin 10000) (j : Fin 128) :
    (iblk m c 2 t : Vec F S10000x128 .f32) (ix2 k j) = V m c main_arg0 (ix2 k j) := by
  obtain ⟨-, -, -, -, e0, e1, -⟩ := idx_facts t
  unfold iblk
  rw [View.read_apply]
  show V m c main_arg0 _ = V m c main_arg0 _
  congr 1
  funext a
  apply Fin.ext
  match a with
  | ⟨0, _⟩ => show win0_2.index t (0 : Fin 2) * 10000 + 1 * k.val = k.val; rw [e0]; omega
  | ⟨1, _⟩ => show win0_2.index t (1 : Fin 2) * 128 + 1 * j.val = j.val; rw [e1]; omega

/-- The first weight matrix, whole. -/
theorem w1all_apply (c : Dev nD) (t : Fin cfg0.N) (a b : Fin 128) :
    (iblk m c 3 t : Vec F S128x128 .f32) (ix2 a b) = V m c main_arg2 (ix2 a b) := by
  obtain ⟨-, -, -, -, -, -, e0, e1, -⟩ := idx_facts t
  unfold iblk
  rw [View.read_apply]
  show V m c main_arg2 _ = V m c main_arg2 _
  congr 1
  funext ax
  apply Fin.ext
  match ax with
  | ⟨0, _⟩ => show win0_3.index t (0 : Fin 2) * 128 + 1 * a.val = a.val; rw [e0]; omega
  | ⟨1, _⟩ => show win0_3.index t (1 : Fin 2) * 128 + 1 * b.val = b.val; rw [e1]; omega

/-- The second weight matrix, whole. -/
theorem w2all_apply (c : Dev nD) (t : Fin cfg0.N) (a b : Fin 128) :
    (iblk m c 4 t : Vec F S128x128 .f32) (ix2 a b) = V m c main_arg4 (ix2 a b) := by
  obtain ⟨-, -, -, -, -, -, -, -, e0, e1, -⟩ := idx_facts t
  unfold iblk
  rw [View.read_apply]
  show V m c main_arg4 _ = V m c main_arg4 _
  congr 1
  funext ax
  apply Fin.ext
  match ax with
  | ⟨0, _⟩ => show win0_4.index t (0 : Fin 2) * 128 + 1 * a.val = a.val; rw [e0]; omega
  | ⟨1, _⟩ => show win0_4.index t (1 : Fin 2) * 128 + 1 * b.val = b.val; rw [e1]; omega

/-- The reshapes before the region write each bias vector as a one-row matrix. -/
theorem V_main_v0 (c : Dev nD) : (V m c main_v0 : S1x128.Idx → Elt F .f32) = shapeCast S1x128 (m ((c : Thread nD τ).loc main_arg3)) shapeCasts_S128_S1x128 := by
  dsimp only [V, hostOps0]; after_results; rfl
theorem V_main_v1 (c : Dev nD) : (V m c main_v1 : S1x128.Idx → Elt F .f32) = shapeCast S1x128 (m ((c : Thread nD τ).loc main_arg5)) shapeCasts_S128_S1x128 := by
  dsimp only [V, hostOps0]; after_results; rfl

/-- The first bias row is the first bias vector. -/
theorem b1_apply (c : Dev nD) (t : Fin cfg0.N) (q : Fin 128) :
    (iblk m c 5 t : Vec F S1x128 .f32) (ix2 (0 : Fin 1) q) = V m c main_arg3 (ix1 q) := by
  obtain ⟨-, -, -, -, -, -, -, -, -, -, e0, e1, -⟩ := idx_facts t
  have hb : (iblk m c 5 t : Vec F S1x128 .f32) (ix2 (0 : Fin 1) q) = V m c main_v0 (ix2 (0 : Fin 1) q) := by
    unfold iblk
    rw [View.read_apply]
    show V m c main_v0 _ = V m c main_v0 _
    congr 1
    funext ax
    apply Fin.ext
    match ax with
    | ⟨0, _⟩ => show win0_5.index t (0 : Fin 2) * 1 + 1 * 0 = 0; rw [e0]
    | ⟨1, _⟩ => show win0_5.index t (1 : Fin 2) * 128 + 1 * q.val = q.val; rw [e1]; omega
  rw [hb, V_main_v0, shapeCast_a_1a_apply, V_main_arg3]

/-- The second bias row is the second bias vector. -/
theorem b2_apply (c : Dev nD) (t : Fin cfg0.N) (q : Fin 128) :
    (iblk m c 6 t : Vec F S1x128 .f32) (ix2 (0 : Fin 1) q) = V m c main_arg5 (ix1 q) := by
  obtain ⟨-, -, -, -, -, -, -, -, -, -, -, -, e0, e1, -⟩ := idx_facts t
  have hb : (iblk m c 6 t : Vec F S1x128 .f32) (ix2 (0 : Fin 1) q) = V m c main_v1 (ix2 (0 : Fin 1) q) := by
    unfold iblk
    rw [View.read_apply]
    show V m c main_v1 _ = V m c main_v1 _
    congr 1
    funext ax
    apply Fin.ext
    match ax with
    | ⟨0, _⟩ => show win0_6.index t (0 : Fin 2) * 1 + 1 * 0 = 0; rw [e0]
    | ⟨1, _⟩ => show win0_6.index t (1 : Fin 2) * 128 + 1 * q.val = q.val; rw [e1]; omega
  rw [hb, V_main_v1, shapeCast_a_1a_apply, V_main_arg5]

/-- The rows of the node features the first half multiplies in are rows `400·t + p`. -/
theorem xrowsA_apply (t : Fin cfg0.N) (X : Vec F S10000x128 .f32) (p : Fin 200) (j : Fin 128) (hr : 400 * t.val + p.val < 10000) :
    xrowsA (grid0.coords t) X (ix2 p j) = X (ix2 ⟨400 * t.val + p.val, hr⟩ j) := by
  obtain ⟨-, -, -, -, -, -, -, -, -, -, -, -, -, -, -, -, e0, e1, -⟩ := idx_facts t
  show X ((Rect.unit (s := S10000x128) (k0_off1 (grid0.coords t)) S200x128.size (k0_off1_inb (grid0.coords t))).emb (ix2 p j)) = _
  congr 1
  funext ax
  apply Fin.ext
  match ax with
  | ⟨0, _⟩ => show k0_off1 (grid0.coords t) (0 : Fin 2) + 1 * p.val = 400 * t.val + p.val; rw [e0]; omega
  | ⟨1, _⟩ => show k0_off1 (grid0.coords t) (1 : Fin 2) + 1 * j.val = j.val; rw [e1]; omega

/-- And the second half's are rows `400·t + 200 + p`. -/
theorem xrowsB_apply (t : Fin cfg0.N) (X : Vec F S10000x128 .f32) (p : Fin 200) (j : Fin 128) (hr : 400 * t.val + 200 + p.val < 10000) :
    xrowsB (grid0.coords t) X (ix2 p j) = X (ix2 ⟨400 * t.val + 200 + p.val, hr⟩ j) := by
  obtain ⟨-, -, -, -, -, -, -, -, -, -, -, -, -, -, -, -, -, -, e0, e1⟩ := idx_facts t
  show X ((Rect.unit (s := S10000x128) (k0_off2 (grid0.coords t)) S200x128.size (k0_off2_inb (grid0.coords t))).emb (ix2 p j)) = _
  congr 1
  funext ax
  apply Fin.ext
  match ax with
  | ⟨0, _⟩ => show k0_off2 (grid0.coords t) (0 : Fin 2) + 1 * p.val = 400 * t.val + 200 + p.val; rw [e0]; omega
  | ⟨1, _⟩ => show k0_off2 (grid0.coords t) (1 : Fin 2) + 1 * j.val = j.val; rw [e1]; omega

end Cert.KernelIdeal.Hand

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.IdealSpec.lean ====
/-
  What the layer computes at one entry of its result, written once for both programs.

  With `N = A · X` the neighbourhood sums (row `r` of the adjacency matrix against the columns of the node features), the
  entry `(r, q)` of the result is the leaky rectifier of
      ∑ⱼ N(r,j) · W₁(q,j)  +  ∑ⱼ (X(r,j) · N(r,j)) · W₂(q,j)  +  b₁(q)  +  b₂(q).
  The kernel adds the four terms as `((s₁ + s₂) + b₁) + b₂`, the reference as `((s₁ + b₁) + s₂) + b₂`; addition of
  extended reals is commutative and associative, so the two groupings agree with no finiteness needed.
-/
import Idealize.ShloMosaic.PureOps.Ideal.Laws
import Idealize.ShloMosaic.Lib.ValueIdx
import Idealize.ShloMosaic.Lib.ValueLayout

noncomputable section

namespace Cert.Spec

open Idealize.ShloMosaic Idealize.ShloMosaic.ValueIdx
open scoped BigOperators

/-- A matrix of extended reals, indexed as the printed programs index a rank-2 array. -/
abbrev Mat (a b : Nat) : Type := (⟨2, ![a, b]⟩ : Shape).Idx → EReal

/-- The leaky rectifier as both programs spell it: `h` where `h ≥ 0`, else the shared literal times `h`. -/
def act (h : EReal) : EReal :=
  Scalar.select (FloatOps.cmpf (F := Ideal) (φ := .f32) .oge h (Ideal.ofBits .f32 0x00000000#32)) h (Ideal.ofBits .f32 0x3E4CCCCD#32 * h)

/-- The neighbourhood sum: row `r` of the adjacency matrix against column `j` of the node features. -/
def nb (adj : Mat 10000 10000) (x : Mat 10000 128) (r : Fin 10000) (j : Fin 128) : EReal :=
  ∑ k : Fin 10000, adj (ix2 r k) * x (ix2 k j)

/-- The entry before the rectifier, the four terms grouped as the kernel adds them. -/
def preK (adj : Mat 10000 10000) (x : Mat 10000 128) (W1 W2 : Mat 128 128) (b1 b2 : Fin 128 → EReal) (r : Fin 10000) (q : Fin 128) : EReal :=
  ((∑ j : Fin 128, nb adj x r j * W1 (ix2 q j)) + (∑ j : Fin 128, (x (ix2 r j) * nb adj x r j) * W2 (ix2 q j)) + b1 q) + b2 q

/-- The same, grouped as the reference adds them. -/
def preR (adj : Mat 10000 10000) (x : Mat 10000 128) (W1 W2 : Mat 128 128) (b1 b2 : Fin 128 → EReal) (r : Fin 10000) (q : Fin 128) : EReal :=
  (((∑ j : Fin 128, nb adj x r j * W1 (ix2 q j)) + b1 q) + (∑ j : Fin 128, (x (ix2 r j) * nb adj x r j) * W2 (ix2 q j))) + b2 q

/-- The two groupings are one extended real. -/
theorem preK_eq_preR (adj : Mat 10000 10000) (x : Mat 10000 128) (W1 W2 : Mat 128 128) (b1 b2 : Fin 128 → EReal) (r : Fin 10000) (q : Fin 128) :
    preK adj x W1 W2 b1 b2 r q = preR adj x W1 W2 b1 b2 r q := by
  unfold preK preR
  rw [add_right_comm (∑ j : Fin 128, nb adj x r j * W1 (ix2 q j))]

end Cert.Spec

end
-- ==== Proof.IdealPayload.lean ====
/-
  One 200-row half of the body's arithmetic, read at an entry, over the exact extended reals.

  A half takes a 200-row stripe `a` of the adjacency matrix, the scratch copies `S0` (node features), `S1`, `S2` (the two
  transposed weight matrices), the 200 rows `xr` of the node features beside the stripe, and the two bias rows.  Rounding
  to bf16 is the identity on extended reals and a matrix product into a zero accumulator is the plain sum of products, so
  entry `(p, q)` of the half is the leaky rectifier of
      ∑ⱼ N(p,j)·S1(j,q) + ∑ⱼ (xr(p,j)·N(p,j))·S2(j,q) + c1(0,q) + c2(0,q),   N(p,j) = ∑ₖ a(p,k)·S0(k,j).
-/
import proofs.«101437_g85229331022396_cont_9to1_m_1172_8_alg».proof.Proof.Gen.KernelIdeal.Skeleton
import proofs.«101437_g85229331022396_cont_9to1_m_1172_8_alg».proof.Proof.LibDense
import proofs.«101437_g85229331022396_cont_9to1_m_1172_8_alg».proof.Proof.IdealSpec
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen
open scoped BigOperators

/-- The stripe against the node features: entry `(p, j)` is the sum over the 10000 nodes. -/
theorem inner_apply (a : Vec Ideal S200x10000 .f32) (S0 : Vec Ideal S10000x128 .bf16) (p : Fin 200) (j : Fin 128) :
    FloatOps.matmul (F := Ideal) (φ₁ := .bf16) (φ₂ := .bf16) dot_S200x10000_S10000x128_S200x128_1_0_0_1_n_n none (truncf .bf16 a bitsLt_bf16_f32) S0 (constant S200x128 .f32 0x00000000#32) (ix2 p j)
      = ∑ k : Fin 10000, a (ix2 p k) * S0 (ix2 k j) := by
  rw [matmul_zero_plain_apply dot_S200x10000_S10000x128_S200x128_1_0_0_1_n_n none rfl rfl
    (fun i k => by
      unfold DotDims.lhsIdx
      rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
      rfl)
    (fun i k => dot_S200x10000_S10000x128_S200x128_1_0_0_1_n_n.lhsIdx_val_of_single rfl i k)
    (fun i k => dot_S200x10000_S10000x128_S200x128_1_0_0_1_n_n.rhsIdx_val_of_single rfl i k)
    (fun i k => by
      unfold DotDims.rhsIdx
      rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
      rfl)]
  rfl

/-- A 200 × 128 block against a 128 × 128 matrix: entry `(p, q)` is the sum over the 128 features. -/
theorem outer_apply (u : FVec Ideal S200x128 .f32) (w : Vec Ideal S128x128 .bf16) (p : Fin 200) (q : Fin 128) :
    FloatOps.matmul (F := Ideal) (φ₁ := .bf16) (φ₂ := .bf16) dot_S200x128_S128x128_S200x128_1_0_0_1_n_n none (truncf .bf16 u bitsLt_bf16_f32) w (constant S200x128 .f32 0x00000000#32) (ix2 p q)
      = ∑ j : Fin 128, u (ix2 p j) * w (ix2 j q) := by
  rw [matmul_zero_plain_apply dot_S200x128_S128x128_S200x128_1_0_0_1_n_n none rfl rfl
    (fun i k => by
      unfold DotDims.lhsIdx
      rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
      rfl)
    (fun i k => dot_S200x128_S128x128_S200x128_1_0_0_1_n_n.lhsIdx_val_of_single rfl i k)
    (fun i k => dot_S200x128_S128x128_S200x128_1_0_0_1_n_n.rhsIdx_val_of_single rfl i k)
    (fun i k => by
      unfold DotDims.rhsIdx
      rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
      rfl)]
  rfl

/-- A bias row repeated down the 200 rows reads its one row. -/
theorem bias_apply (c1 : Vec Ideal S1x128 .f32) (p : Fin 200) (q : Fin 128) :
    broadcastTo S200x128 (shapeCast S1x128 c1 shapeCasts_S1x128_S1x128) broadcasts_S1x128_S200x128 (ix2 p q) = c1 (ix2 (0 : Fin 1) q) := by
  rw [broadcastTo_1b_ab_apply, shapeCast_self]

/-- A half at entry `(p, q)`. -/
theorem half_apply (a : Vec Ideal S200x10000 .f32) (S0 : Vec Ideal S10000x128 .bf16) (xr : Vec Ideal S200x128 .f32)
    (S1 S2 : Vec Ideal S128x128 .bf16) (c1 c2 : Vec Ideal S1x128 .f32) (p : Fin 200) (q : Fin 128) :
    k0_pay5 (F := Ideal) a S0 xr S1 S2 c1 c2 (ix2 p q)
      = Cert.Spec.act (((∑ j : Fin 128, (∑ k : Fin 10000, a (ix2 p k) * S0 (ix2 k j)) * S1 (ix2 j q))
          + (∑ j : Fin 128, (xr (ix2 p j) * (∑ k : Fin 10000, a (ix2 p k) * S0 (ix2 k j))) * S2 (ix2 j q))
          + c1 (ix2 (0 : Fin 1) q)) + c2 (ix2 (0 : Fin 1) q)) := by
  unfold k0_pay5
  simp only [select, cmpf, mulf, addf, broadcast, matmul]
  rw [outer_apply, outer_apply, bias_apply, bias_apply]
  simp only [mulf, inner_apply]
  rfl

/-- A half is the layer's formula at row `r`, when its stripe's row `p` is row `r` of the adjacency matrix, the rows of the
    node features beside it are row `r` too, and the scratch copies are the node features and the transposed weights. -/
theorem half_spec (a : Vec Ideal S200x10000 .f32) (S0 : Vec Ideal S10000x128 .bf16) (xr : Vec Ideal S200x128 .f32)
    (S1 S2 : Vec Ideal S128x128 .bf16) (c1 c2 : Vec Ideal S1x128 .f32)
    (adj : Cert.Spec.Mat 10000 10000) (x : Cert.Spec.Mat 10000 128) (W1 W2 : Cert.Spec.Mat 128 128) (b1 b2 : Fin 128 → EReal)
    (r : Fin 10000) (p : Fin 200) (q : Fin 128)
    (ha : ∀ k : Fin 10000, a (ix2 p k) = adj (ix2 r k)) (hS0 : ∀ (k : Fin 10000) (j : Fin 128), S0 (ix2 k j) = x (ix2 k j))
    (hxr : ∀ j : Fin 128, xr (ix2 p j) = x (ix2 r j)) (hS1 : ∀ j : Fin 128, S1 (ix2 j q) = W1 (ix2 q j))
    (hS2 : ∀ j : Fin 128, S2 (ix2 j q) = W2 (ix2 q j)) (hc1 : c1 (ix2 (0 : Fin 1) q) = b1 q) (hc2 : c2 (ix2 (0 : Fin 1) q) = b2 q) :
    k0_pay5 (F := Ideal) a S0 xr S1 S2 c1 c2 (ix2 p q) = Cert.Spec.act (Cert.Spec.preK adj x W1 W2 b1 b2 r q) := by
  rw [half_apply]
  unfold Cert.Spec.preK Cert.Spec.nb
  simp only [ha, hS0, hxr, hS1, hS2, hc1, hc2]

/-- The second half's arithmetic is the first's. -/
theorem pay1_eq_pay5 (a : Vec Ideal S200x10000 .f32) (S0 : Vec Ideal S10000x128 .bf16) (xr : Vec Ideal S200x128 .f32)
    (S1 S2 : Vec Ideal S128x128 .bf16) (c1 c2 : Vec Ideal S1x128 .f32) :
    k0_pay1 (F := Ideal) a S0 xr S1 S2 c1 c2 = k0_pay5 (F := Ideal) a S0 xr S1 S2 c1 c2 := rfl

end Cert.KernelIdeal.Hand

end
-- ==== Proof.IdealValue.lean ====
/-
  The kernel's result array, as one function of the argument arrays, at the exact extended reals.

  The output window's block at point `t` is rows `400·t … 400·t + 399` of the result; the 25 blocks tile the array.
  Within a block the lower 200 rows are the first half of the body — computed from the first adjacency stripe — and the
  upper 200 the second.  A half at row `p` is, entry by entry, the layer's formula at the row of the adjacency matrix its
  stripe holds there (the stripe's row `p` IS that row, the node features' row beside it the same row, the scratch
  copies the node features and the transposed weights).  So every entry of the array is the layer's formula at its own
  row and column.
-/
import proofs.«101437_g85229331022396_cont_9to1_m_1172_8_alg».proof.Proof.IdealBlocks
import proofs.«101437_g85229331022396_cont_9to1_m_1172_8_alg».proof.Proof.IdealPayload

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (m : (ℓ : Loc nD τ sig) → Buf (Elt Ideal) ℓ) (ρ : Dev nD → PrngReg)

/-- The result: the leaky rectifier of the four terms, grouped as the kernel adds them, at each entry. -/
def G (c : Dev nD) : Buf (Elt Ideal) ((c : Thread nD τ).loc main_v2) := fun i =>
  Cert.Spec.act (Cert.Spec.preK (V m c main_arg1) (V m c main_arg0) (V m c main_arg2) (V m c main_arg4)
    (fun q => V m c main_arg3 (ix1 q)) (fun q => V m c main_arg5 (ix1 q)) (i 0) (i 1))

/-! ## The scratch copies, entry by entry -/

theorem pay2_apply (X : Vec Ideal S10000x128 .f32) (k : Fin 10000) (j : Fin 128) : k0_pay2 (F := Ideal) X (ix2 k j) = X (ix2 k j) := by
  unfold k0_pay2
  rw [shapeCast_self]
  rfl

theorem pay3_apply (W : Vec Ideal S128x128 .f32) (j q : Fin 128) : k0_pay3 (F := Ideal) W (ix2 j q) = W (ix2 q j) := by
  unfold k0_pay3
  rw [shapeCast_self]
  show FloatOps.truncf (F := Ideal) .bf16 _ (transpose S128x128 [1, 0] W transposes_S128x128_p1_0_S128x128 (ix2 j q)) = _
  rw [Ideal.truncf_def, transpose_ix2_apply]

theorem pay4_apply (W : Vec Ideal S128x128 .f32) (j q : Fin 128) : k0_pay4 (F := Ideal) W (ix2 j q) = W (ix2 q j) := by
  unfold k0_pay4
  rw [shapeCast_self]
  show FloatOps.truncf (F := Ideal) .bf16 _ (transpose S128x128 [1, 0] W transposes_S128x128_p1_0_S128x128 (ix2 j q)) = _
  rw [Ideal.truncf_def, transpose_ix2_apply]

/-! ## A half is the layer's formula at its rows -/

theorem halfA_apply (c : Dev nD) (t : Fin cfg0.N) (p : Fin 200) (q : Fin 128) (hr : 400 * t.val + p.val < 10000) :
    k0_pay5 (F := Ideal) (iblk m c 0 t) (k0_pay2 (iblk m c 2 t0)) (xrowsA (grid0.coords t) (iblk m c 2 t)) (k0_pay3 (iblk m c 3 t0)) (k0_pay4 (iblk m c 4 t0)) (iblk m c 5 t) (iblk m c 6 t) (ix2 p q)
      = G m c (ix2 ⟨400 * t.val + p.val, hr⟩ q) := by
  show _ = Cert.Spec.act (Cert.Spec.preK (V m c main_arg1) (V m c main_arg0) (V m c main_arg2) (V m c main_arg4)
    (fun q => V m c main_arg3 (ix1 q)) (fun q => V m c main_arg5 (ix1 q)) ⟨400 * t.val + p.val, hr⟩ q)
  exact half_spec (iblk m c 0 t) (k0_pay2 (iblk m c 2 t0)) (xrowsA (grid0.coords t) (iblk m c 2 t)) (k0_pay3 (iblk m c 3 t0)) (k0_pay4 (iblk m c 4 t0)) (iblk m c 5 t) (iblk m c 6 t)
    (V m c main_arg1) (V m c main_arg0) (V m c main_arg2) (V m c main_arg4) (fun q => V m c main_arg3 (ix1 q)) (fun q => V m c main_arg5 (ix1 q))
    ⟨400 * t.val + p.val, hr⟩ p q
    (fun k => adjA_apply m c t p k hr)
    (fun k j => (pay2_apply (iblk m c 2 t0) k j).trans (xall_apply m c t0 k j))
    (fun j => (xrowsA_apply t (iblk m c 2 t) p j hr).trans (xall_apply m c t _ j))
    (fun j => (pay3_apply (iblk m c 3 t0) j q).trans (w1all_apply m c t0 q j))
    (fun j => (pay4_apply (iblk m c 4 t0) j q).trans (w2all_apply m c t0 q j))
    (b1_apply m c t q) (b2_apply m c t q)

theorem halfB_apply (c : Dev nD) (t : Fin cfg0.N) (p : Fin 200) (q : Fin 128) (hr : 400 * t.val + 200 + p.val < 10000) :
    k0_pay1 (F := Ideal) (iblk m c 1 t) (k0_pay2 (iblk m c 2 t0)) (xrowsB (grid0.coords t) (iblk m c 2 t)) (k0_pay3 (iblk m c 3 t0)) (k0_pay4 (iblk m c 4 t0)) (iblk m c 5 t) (iblk m c 6 t) (ix2 p q)
      = G m c (ix2 ⟨400 * t.val + 200 + p.val, hr⟩ q) := by
  rw [pay1_eq_pay5]
  show _ = Cert.Spec.act (Cert.Spec.preK (V m c main_arg1) (V m c main_arg0) (V m c main_arg2) (V m c main_arg4)
    (fun q => V m c main_arg3 (ix1 q)) (fun q => V m c main_arg5 (ix1 q)) ⟨400 * t.val + 200 + p.val, hr⟩ q)
  exact half_spec (iblk m c 1 t) (k0_pay2 (iblk m c 2 t0)) (xrowsB (grid0.coords t) (iblk m c 2 t)) (k0_pay3 (iblk m c 3 t0)) (k0_pay4 (iblk m c 4 t0)) (iblk m c 5 t) (iblk m c 6 t)
    (V m c main_arg1) (V m c main_arg0) (V m c main_arg2) (V m c main_arg4) (fun q => V m c main_arg3 (ix1 q)) (fun q => V m c main_arg5 (ix1 q))
    ⟨400 * t.val + 200 + p.val, hr⟩ p q
    (fun k => adjB_apply m c t p k hr)
    (fun k j => (pay2_apply (iblk m c 2 t0) k j).trans (xall_apply m c t0 k j))
    (fun j => (xrowsB_apply t (iblk m c 2 t) p j hr).trans (xall_apply m c t _ j))
    (fun j => (pay3_apply (iblk m c 3 t0) j q).trans (w1all_apply m c t0 q j))
    (fun j => (pay4_apply (iblk m c 4 t0) j q).trans (w2all_apply m c t0 q j))
    (b1_apply m c t q) (b2_apply m c t q)

theorem lo400 (p : Fin 200) : p.val < 400 := by have := p.isLt; omega
theorem hi400 (p : Fin 200) : 200 + p.val < 400 := by have := p.isLt; omega

/-! ## The output block: two stacked halves -/

/-- Two 200-row pieces stacked into a 400-row block: the lower rows read the earlier piece, -/
theorem stack_lo (w1 w0 : S200x128.Idx → Elt Ideal .f32) (p : Fin 200) (q : Fin 128) (h : p.val < 400) :
    View.canon [(⟨Rect.unit (s := S400x128) ![200, 0] S200x128.size inb_S400x128_S200x128_200_0, w1⟩ : View.Piece (Elt Ideal) S400x128 .f32), ⟨Rect.unit (s := S400x128) ![0, 0] S200x128.size inb_S400x128_S200x128_0_0, w0⟩] (ix2 (⟨p.val, h⟩ : Fin 400) q) = w0 (ix2 p q) := by
  rw [View.canon_cons_of_not_mem _ _ (by
    rw [Rect.mem_set_unit]
    intro hm
    have h0 : 200 ≤ p.val := (hm 0).1
    have := p.isLt
    omega)]
  have e : (ix2 (⟨p.val, h⟩ : Fin 400) q : S400x128.Idx) = (Rect.unit (s := S400x128) ![0, 0] S200x128.size inb_S400x128_S200x128_0_0).emb (ix2 p q) := by
    funext a
    apply Fin.ext
    match a with
    | ⟨0, _⟩ => show p.val = 0 + 1 * p.val; omega
    | ⟨1, _⟩ => show q.val = 0 + 1 * q.val; omega
  rw [e, View.canon_cons_emb]

/-- the upper rows the later one. -/
theorem stack_hi (w1 w0 : S200x128.Idx → Elt Ideal .f32) (p : Fin 200) (q : Fin 128) (h : 200 + p.val < 400) :
    View.canon [(⟨Rect.unit (s := S400x128) ![200, 0] S200x128.size inb_S400x128_S200x128_200_0, w1⟩ : View.Piece (Elt Ideal) S400x128 .f32), ⟨Rect.unit (s := S400x128) ![0, 0] S200x128.size inb_S400x128_S200x128_0_0, w0⟩] (ix2 (⟨200 + p.val, h⟩ : Fin 400) q) = w1 (ix2 p q) := by
  have e : (ix2 (⟨200 + p.val, h⟩ : Fin 400) q : S400x128.Idx) = (Rect.unit (s := S400x128) ![200, 0] S200x128.size inb_S400x128_S200x128_200_0).emb (ix2 p q) := by
    funext a
    apply Fin.ext
    match a with
    | ⟨0, _⟩ => show 200 + p.val = 200 + 1 * p.val; omega
    | ⟨1, _⟩ => show q.val = 0 + 1 * q.val; omega
  rw [e, View.canon_cons_emb]

/-- The output block after point `t`, at either kind of point, is the two halves over the first point's scratch. -/
theorem outAt_canon (c : Dev nD) (t : Fin cfg0.N) :
    outAt m c t = View.canon [(⟨Rect.unit (s := S400x128) ![200, 0] S200x128.size inb_S400x128_S200x128_200_0, k0_pay1 (iblk m c 1 t) (k0_pay2 (iblk m c 2 t0)) (xrowsB (grid0.coords t) (iblk m c 2 t)) (k0_pay3 (iblk m c 3 t0)) (k0_pay4 (iblk m c 4 t0)) (iblk m c 5 t) (iblk m c 6 t)⟩ : View.Piece (Elt Ideal) S400x128 .f32),
      ⟨Rect.unit (s := S400x128) ![0, 0] S200x128.size inb_S400x128_S200x128_0_0, k0_pay5 (iblk m c 0 t) (k0_pay2 (iblk m c 2 t0)) (xrowsA (grid0.coords t) (iblk m c 2 t)) (k0_pay3 (iblk m c 3 t0)) (k0_pay4 (iblk m c 4 t0)) (iblk m c 5 t) (iblk m c 6 t)⟩] := by
  have hN : t.val < 25 := lt_of_lt_of_eq t.isLt (show cfg0.N = 25 from N_0)
  by_cases h : t.val % 25 = 0
  · obtain rfl : t = t0 := Fin.ext (by show t.val = 0; omega)
    rw [outAt_first m c t0 h, outF7_eq]
  · rw [outAt_later m c t h, outL7_eq]
    unfold sc0 sc1 sc2
    rw [scF0_eq, scF1_eq, scF2_eq]

/-! ## From blocks to the array -/

/-- What point `t` writes back is block `t` of `G`: row `y₀` of the block is row `400·t + y₀` of the result. -/
theorem flushed_eq (c : Dev nD) (t : Fin cfg0.N) :
    (dats m 0 c).flushed 7 t = ((cfg0.win 7).blk t).view.read (Elt Ideal) (G m c) := by
  obtain ⟨-, -, -, -, -, -, -, -, -, -, -, -, -, -, e0, e1, -⟩ := idx_facts t
  have hN : t.val < 25 := lt_of_lt_of_eq t.isLt (show cfg0.N = 25 from N_0)
  show (cfg0.win 7).cut (grid0.coords t) ((dats m 0 c).after 7 t) = _
  rw [after7]
  funext y
  have hy0 : (y 0).val < 400 := (y 0).isLt
  by_cases hlo : (y 0).val < 200
  · obtain ⟨p, q, rfl⟩ : ∃ (p : Fin 200) (q : Fin 128), y = ix2 (⟨p.val, lo400 p⟩ : Fin 400) q :=
      ⟨⟨(y 0).val, hlo⟩, y 1, by funext a; match a with | ⟨0, _⟩ => rfl | ⟨1, _⟩ => rfl⟩
    have hp : p.val < 200 := p.isLt
    show outAt m c t (ix2 (⟨p.val, _⟩ : Fin 400) q) = G m c (((cfg0.win 7).blk t).view.emb (ix2 (⟨p.val, _⟩ : Fin 400) q))
    rw [outAt_canon, stack_lo, halfA_apply m c t p q (by omega)]
    congr 1
    funext a
    apply Fin.ext
    match a with
    | ⟨0, _⟩ => show 400 * t.val + p.val = win0_7.index t (0 : Fin 2) * 400 + 1 * p.val; rw [e0]; omega
    | ⟨1, _⟩ => show q.val = win0_7.index t (1 : Fin 2) * 128 + 1 * q.val; rw [e1]; omega
  · obtain ⟨p, q, rfl⟩ : ∃ (p : Fin 200) (q : Fin 128), y = ix2 (⟨200 + p.val, hi400 p⟩ : Fin 400) q :=
      ⟨⟨(y 0).val - 200, by omega⟩, y 1, by
        funext a
        match a with
        | ⟨0, _⟩ => exact Fin.ext (by show (y 0).val = 200 + ((y 0).val - 200); omega)
        | ⟨1, _⟩ => rfl⟩
    have hp : p.val < 200 := p.isLt
    show outAt m c t (ix2 (⟨200 + p.val, _⟩ : Fin 400) q) = G m c (((cfg0.win 7).blk t).view.emb (ix2 (⟨200 + p.val, _⟩ : Fin 400) q))
    rw [outAt_canon, stack_hi, halfB_apply m c t p q (by omega)]
    congr 1
    funext a
    apply Fin.ext
    match a with
    | ⟨0, _⟩ => show 400 * t.val + 200 + p.val = win0_7.index t (0 : Fin 2) * 400 + 1 * (200 + p.val); rw [e0]; omega
    | ⟨1, _⟩ => show q.val = win0_7.index t (1 : Fin 2) * 128 + 1 * q.val; rw [e1]; omega

/-- An entry of the result is in point `t`'s block iff its row is among the block's 400 rows. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- The 25 blocks cover the result, so the array ends holding `G`. -/
theorem final7 (c : Dev nD) : (dats m 0 c).arrAt 7 cfg0.N = G m c :=
  (dats m 0 c).arrAt_eq_of_cover 7 (G m c) (fun t _ => flushed_eq m c t) fun i => by
    have hi0 : (i 0).val < 10000 := (i 0).isLt
    have hi1 : (i 1).val < 128 := (i 1).isLt
    have hN : cfg0.N = 25 := N_0
    have ht : (i 0).val / 400 < cfg0.N := by rw [hN]; omega
    obtain ⟨-, -, -, -, -, -, -, -, -, -, -, -, -, -, e0, e1, -⟩ := idx_facts ⟨(i 0).val / 400, ht⟩
    refine ⟨⟨(i 0).val / 400, ht⟩, flush0_7 _, ?_⟩
    rw [mem_blk7]
    intro a
    match a with
    | ⟨0, _⟩ =>
      show win0_7.index ⟨(i 0).val / 400, ht⟩ (0 : Fin 2) * 400 ≤ (i 0).val ∧ (i 0).val < win0_7.index ⟨(i 0).val / 400, ht⟩ (0 : Fin 2) * 400 + 400
      rw [e0]
      show (i 0).val / 400 * 400 ≤ (i 0).val ∧ (i 0).val < (i 0).val / 400 * 400 + 400
      omega
    | ⟨1, _⟩ =>
      show win0_7.index ⟨(i 0).val / 400, ht⟩ (1 : Fin 2) * 128 ≤ (i 1).val ∧ (i 1).val < win0_7.index ⟨(i 0).val / 400, ht⟩ (1 : Fin 2) * 128 + 128
      rw [e1]
      omega

/-- The kernel's run, read: the result array at `G`, the six arguments unchanged. -/
theorem run_value : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 7).trans (final7 m c),
     ((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 (Pipeline.mem_restRefs_of main_arg3 (by decide) (by decide))).trans (V_main_arg3 m c),
     ((h c).1 4).trans (((dats m 0 c).arrAt_in 4 rfl _).trans ((A_eq m c 4).trans (V_main_arg4 m c))),
     ((h c).2 main_arg5 (Pipeline.mem_restRefs_of main_arg5 (by decide) (by decide))).trans (V_main_arg5 m c)⟩)
    (run_main m ρ)

end Cert.KernelIdeal.Hand

end
-- ==== Proof.IdealRef.lean ====
/-
  The reference, entry by entry.  Its run ends with the result at the composition of its twenty host operations; read
  one operation at a time that composition is, at row `r` and column `q`, the leaky rectifier of the four terms grouped as
  `((s₁ + b₁) + s₂) + b₂`: the two transposes turn `W(q, j)` into the right operand's `(j, q)`, the two broadcasts of a
  bias vector read its entry `q`, and each matrix product is the plain sum of products.
-/
import proofs.«101437_g85229331022396_cont_9to1_m_1172_8_alg».proof.Proof.Gen.ReferenceIdeal.Read
import proofs.«101437_g85229331022396_cont_9to1_m_1172_8_alg».proof.Proof.IdealSpec

noncomputable section

namespace Cert.ReferenceIdeal.Hand

open Cert.ReferenceIdeal Cert.ReferenceIdeal.Gen Cert.ReferenceIdeal.Read Idealize.ShloMosaic Idealize.ShloMosaic.ValueIdx
open scoped BigOperators

/-- The neighbourhood sums, at any entry. -/
theorem nb_apply (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (i : S10000x128.Idx) :
    val_main_v0 (F := Ideal) x0 x1 i = Cert.Spec.nb x1 x0 (i 0) (i 1) := by
  rw [val_main_v0_apply]
  unfold Cert.Spec.nb
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  rw [el, er]
  rfl

/-- Before the rectifier: the four terms as the reference groups them. -/
theorem pre_apply (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 10000) (q : Fin 128) :
    val_main_v12 (F := Ideal) x0 x1 x2 x3 x4 x5 (ix2 r q)
      = Cert.Spec.preR x1 x0 x2 x4 (fun q => x3 (ix1 q)) (fun q => x5 (ix1 q)) r q := by
  have e3l : ∀ k : Fin 128, lidx_main_v3 (ix2 r q) k = ix2 r k := fun k => funext fun a => by match a with | ⟨0, _⟩ => rfl | ⟨1, _⟩ => rfl
  have e3r : ∀ k : Fin 128, idx_main_v2 (ridx_main_v3 (ix2 r q) k) = ix2 q k := fun k => funext fun a => by match a with | ⟨0, _⟩ => rfl | ⟨1, _⟩ => rfl
  have e8l : ∀ k : Fin 128, lidx_main_v8 (ix2 r q) k = ix2 r k := fun k => funext fun a => by match a with | ⟨0, _⟩ => rfl | ⟨1, _⟩ => rfl
  have e8r : ∀ k : Fin 128, idx_main_v7 (ridx_main_v8 (ix2 r q) k) = ix2 q k := fun k => funext fun a => by match a with | ⟨0, _⟩ => rfl | ⟨1, _⟩ => rfl
  have e4 : idx_main_v4 (idx_main_v5 (ix2 r q)) = ix1 q := funext fun a => by match a with | ⟨0, _⟩ => rfl
  have e10 : idx_main_v10 (idx_main_v11 (ix2 r q)) = ix1 q := funext fun a => by match a with | ⟨0, _⟩ => rfl
  rw [val_main_v12_apply, val_main_v9_apply, val_main_v6_apply, val_main_v3_apply, val_main_v8_apply, val_main_v5_apply,
    val_main_v11_apply, val_main_v4_apply, val_main_v10_apply]
  simp only [val_main_v1_apply, val_main_v2_apply, val_main_v7_apply, nb_apply x0 x1 x2 x3 x4 x5, e3l, e3r, e8l, e8r, e4, e10]
  unfold Cert.Spec.preR
  rfl

/-- The reference's result at an entry. -/
theorem ref_apply (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 10000) (q : Fin 128) :
    val_main_v17 (F := Ideal) x0 x1 x2 x3 x4 x5 (ix2 r q)
      = Cert.Spec.act (Cert.Spec.preR x1 x0 x2 x4 (fun q => x3 (ix1 q)) (fun q => x5 (ix1 q)) r q) := by
  rw [val_main_v17_apply, val_main_v14_apply, val_main_v16_apply, val_main_v13_apply, val_main_v15_apply, val_main_cst_apply,
    val_main_cst_0_apply, pre_apply]
  rfl

end Cert.ReferenceIdeal.Hand

end
-- ==== Proof.lean ====
/- The proof of `Cert.Claim`: the fused graph-convolution layer against its reference.

   Both programs compute, at row `r` and column `q`, the leaky rectifier of
       ∑ⱼ N(r,j)·W₁(q,j) + ∑ⱼ (X(r,j)·N(r,j))·W₂(q,j) + b₁(q) + b₂(q),     N = A·X,
   the kernel 400 rows at a time over 25 grid points, keeping bf16 copies of `X`, `W₁ᵀ`, `W₂ᵀ` in scratch buffers it fills
   at the first point.  Over the extended reals rounding is the identity and a matrix product is a plain sum of products,
   so the two differ only in how they group the four terms, and addition there is commutative and associative.
   The frames: the kernel is run once per control case (first point, later point) by symbolic execution; the adjacency
   matrix reaches the kernel through two windows, which share it at complementary half shares; the reference's frame is its
   run with the result dropped.  `preserves` has no entry: the ideal pass rewrote nothing. -/
import proofs.«101437_g85229331022396_cont_9to1_m_1172_8_alg».proof.Defs
import proofs.«101437_g85229331022396_cont_9to1_m_1172_8_alg».proof.Proof.Gen.Kernel
import proofs.«101437_g85229331022396_cont_9to1_m_1172_8_alg».proof.Proof.Gen.Kernel.Skeleton
import proofs.«101437_g85229331022396_cont_9to1_m_1172_8_alg».proof.Proof.Gen.Kernel.Launch
import proofs.«101437_g85229331022396_cont_9to1_m_1172_8_alg».proof.Proof.Gen.Kernel.Points
import proofs.«101437_g85229331022396_cont_9to1_m_1172_8_alg».proof.Proof.Gen.KernelIdeal
import proofs.«101437_g85229331022396_cont_9to1_m_1172_8_alg».proof.Proof.Gen.KernelIdeal.Skeleton
import proofs.«101437_g85229331022396_cont_9to1_m_1172_8_alg».proof.Proof.Gen.KernelIdeal.Launch
import proofs.«101437_g85229331022396_cont_9to1_m_1172_8_alg».proof.Proof.Gen.KernelIdeal.Points
import proofs.«101437_g85229331022396_cont_9to1_m_1172_8_alg».proof.Proof.Gen.ReferenceIdeal
import proofs.«101437_g85229331022396_cont_9to1_m_1172_8_alg».proof.Proof.Gen.Pre_finite_inputs
import proofs.«101437_g85229331022396_cont_9to1_m_1172_8_alg».proof.Proof.Gen.ReferenceIdeal.Read
import proofs.«101437_g85229331022396_cont_9to1_m_1172_8_alg».proof.Proof.BitsFrame
import proofs.«101437_g85229331022396_cont_9to1_m_1172_8_alg».proof.Proof.IdealValue
import proofs.«101437_g85229331022396_cont_9to1_m_1172_8_alg».proof.Proof.IdealRef
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact extended reals the kernel's result array ends at the layer's formula with the terms grouped its way, the
    reference's at the same formula grouped the other way, of arguments that agree: one array. -/
theorem algebraic : Cert.algebraic_KernelIdeal_ReferenceIdeal := by
  intro m ρ m' ρ' _ hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v17_eq, h0, h1, h2, h3, h4, h5]
  funext i
  obtain ⟨r, q, rfl⟩ : ∃ (r : Fin 10000) (q : Fin 128), i = ix2 r q := ⟨i 0, i 1, eq_ix2 i⟩
  rw [Cert.ReferenceIdeal.Hand.ref_apply, ← Cert.Spec.preK_eq_preR]
  unfold Cert.KernelIdeal.Hand.G
  dsimp only
  rw [Cert.KernelIdeal.Hand.V_main_arg0 m c, Cert.KernelIdeal.Hand.V_main_arg1 m c, Cert.KernelIdeal.Hand.V_main_arg2 m c,
    Cert.KernelIdeal.Hand.V_main_arg3 m c, Cert.KernelIdeal.Hand.V_main_arg4 m c, Cert.KernelIdeal.Hand.V_main_arg5 m c]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
